-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S1024x2048 : Shape := ⟨2, ![1024, 2048]⟩
abbrev S16384x1024 : Shape := ⟨2, ![16384, 1024]⟩

abbrev nBuf : Space → Nat
  | .hbm => 16
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x2048, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S8x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  concatenates_S1024x1024_S1024x1024_S1024x2048_d1 : Shape.Concatenates [S1024x1024, S1024x1024] S1024x2048 1
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x1024 : S1024x2048.Slices ![0, 0] S1024x1024
  slices_S1024x2048_o0_1024_S1024x1024 : S1024x2048.Slices ![0, 1024] S1024x1024
  shapeCasts_S16384x1024_S8x2048x1024 : S16384x1024.ShapeCasts S8x2048x1024
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8x2048x1024, .f32⟩
  | .hbm, ⟨8, _⟩ => ⟨S1024x1024, .f32⟩
  | .hbm, ⟨9, _⟩ => ⟨S1024x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  dot_S8x2048x1024_S1024x1024_S8x2048x1024_2_0_01_1_n_n_wf : DotDims.WF S8x2048x1024 S1024x1024 S8x2048x1024 [2] [0] [0, 1] [1] [] []

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf

class Facts : Prop extends Facts₀ where

variable [Facts]
-- ==== Proof.Layer.lean ====
/-
  The layer's output as one function of its five argument arrays.

  For x : [8, 2048, 1024] and two weight matrices c, s : [1024, 1024], write
      A_w(b, t, o) = Σ_k x(b, t, k) · w(k, o)
  for row (b, t) of x against column o of w. The layer's output at (b, t, o) is the modulus
      sqrt (A_c(b, t, o)² + A_s(b, t, o)²)
  of the complex number A_c + i·A_s, with c = cos (θ + θ_noise) and s = sin (φ + φ_noise), entry by entry.
  Everything is read on the extended reals: sums and products are the exact ones, so the order in
  which a sum over k is taken, and whether the two products are computed separately or as one
  product against the two matrices laid side by side, cannot matter.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- The shape of the input and of the output: batch × time × features. -/
abbrev Act : Shape := ⟨3, ![8, 2048, 1024]⟩
/-- The shape of each of the four weight arrays: input features × output features. -/
abbrev Wt : Shape := ⟨2, ![1024, 1024]⟩

/-- Row `(b, t)` of `x` against column `o` of `w`: the sum over the 1024 input features. -/
def amplitude (x : FVec Ideal Act .f32) (w : FVec Ideal Wt .f32) (i : Act.Idx) : EReal :=
  ∑ k : Fin 1024, x (ix3 (i 0) (i 1) k) * w (ix2 k (i 2))

/-- The modulus of the complex amplitude whose real part is taken against `c` and imaginary part against `s`. -/
def modulus (x : FVec Ideal Act .f32) (c s : FVec Ideal Wt .f32) : FVec Ideal Act .f32 := fun i =>
  Ideal.sqrt (amplitude x c i * amplitude x c i + amplitude x s i * amplitude x s i)

/-- The layer: the real weights are the cosines of `θ + θn`, the imaginary ones the sines of `φ + φn`. -/
def layer (x : FVec Ideal Act .f32) (θ φ θn φn : FVec Ideal Wt .f32) : FVec Ideal Act .f32 :=
  modulus x (Host.cos (F := Ideal) (addf θ θn)) (Host.sin (F := Ideal) (addf φ φn))

end Cert.Layer

end
-- ==== Proof.LayerReference.lean ====
/-
  The reference computes the layer.

  Its program forms cos (θ + θn) and sin (φ + φn), contracts x against each over the feature axis,
  squares the two results, adds them and takes the root. Reading each operation at an output index
  (b, t, o), the two contractions are the sums over k of x(b, t, k) · cos(..)(k, o) and of
  x(b, t, k) · sin(..)(k, o): the two amplitudes of the layer, term for term.
-/
import proofs.«159301_j16767552324222_2_alg».proof.Proof.Gen.ReferenceIdeal.Read
import proofs.«159301_j16767552324222_2_alg».proof.Proof.Layer

noncomputable section

namespace Cert.Layer.Reference

open Idealize.ShloMosaic Idealize.ShloMosaic.ValueIdx
open Cert.ReferenceIdeal Cert.ReferenceIdeal.Read

/-- The reference's last stage, as a function of the argument arrays, is the layer. The arguments come in
    the program's order: x, θ, φ, θ-noise, φ-noise. -/
theorem stage_eq_layer (x : FVec Ideal S8x2048x1024 .f32) (θ φ θn φn : FVec Ideal S1024x1024 .f32) :
    val_main_v9 (F := Ideal) x θ φ θn φn = Cert.Layer.layer x θ φ θn φn := by
  funext i
  -- the operand indices of the two contractions at output index i and feature k
  have hl2 : ∀ k : Fin 1024, lidx_main_v2 i k = ix3 (i 0) (i 1) k := fun k =>
    funext fun a => Fin.ext (by match a with | ⟨0, _⟩ => rfl | ⟨1, _⟩ => rfl | ⟨2, _⟩ => rfl)
  have hr2 : ∀ k : Fin 1024, ridx_main_v2 i k = ix2 k (i 2) := fun k =>
    funext fun a => Fin.ext (by match a with | ⟨0, _⟩ => rfl | ⟨1, _⟩ => rfl)
  have hl5 : ∀ k : Fin 1024, lidx_main_v5 i k = ix3 (i 0) (i 1) k := fun k =>
    funext fun a => Fin.ext (by match a with | ⟨0, _⟩ => rfl | ⟨1, _⟩ => rfl | ⟨2, _⟩ => rfl)
  have hr5 : ∀ k : Fin 1024, ridx_main_v5 i k = ix2 k (i 2) := fun k =>
    funext fun a => Fin.ext (by match a with | ⟨0, _⟩ => rfl | ⟨1, _⟩ => rfl)
  rw [val_main_v9_apply, val_main_v8_apply, val_main_v6_apply, val_main_v7_apply, val_main_v2_apply, val_main_v5_apply]
  simp only [hl2, hr2, hl5, hr5]
  rfl

end Cert.Layer.Reference

end
-- ==== Proof.LayerBody.lean ====
/-
  What the kernel body computes from one block of rows.

  The body multiplies a block a : [1024, 1024] of rows of x by the stacked matrix w : [1024, 2048] whose
  left half holds the cosines and whose right half holds the sines, into a zero accumulator. Entry (p, q')
  of the product is the sum over k of a(p, k) · w(k, q'). The body then cuts the product into its left and
  right halves, columns q and q + 1024, squares each entry, adds the two squares and takes the root. So
  entry (p, q) of what it stores is
      sqrt ((Σ_k a(p, k) · w(k, q))² + (Σ_k a(p, k) · w(k, q + 1024))²).
-/
import proofs.«159301_j16767552324222_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Layer.Body

open Idealize.ShloMosaic Idealize.ShloMosaic.ValueIdx
open Cert.KernelIdeal Cert.KernelIdeal.Gen

/-- Row `p` of a block of rows against column `q` of the stacked matrix. -/
def rowDot (a : FVec Ideal S1024x1024 .bf16) (w : FVec Ideal S1024x2048 .bf16) (p : Fin 1024) (q : Fin 2048) : EReal :=
  ∑ k : Fin 1024, a (ix2 p k) * w (ix2 k q)

/-- Column `q` of the left half of the stacked matrix. -/
abbrev colL (q : Fin 1024) : Fin 2048 := ⟨q.val, by have := q.isLt; omega⟩
/-- Column `q` of its right half. -/
abbrev colR (q : Fin 1024) : Fin 2048 := ⟨q.val + 1024, by have := q.isLt; omega⟩

/-! ## The operand indices of the block product at an output index and a contraction index -/

theorem lhs_row (j : S1024x2048.Idx) (q : dot_S1024x1024_S1024x2048_S1024x2048_1_0_0_1_n_n.contr.Idx) :
    (dot_S1024x1024_S1024x2048_S1024x2048_1_0_0_1_n_n.lhsIdx j q 0).val = (j 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_contr (j : S1024x2048.Idx) (q : dot_S1024x1024_S1024x2048_S1024x2048_1_0_0_1_n_n.contr.Idx) :
    (dot_S1024x1024_S1024x2048_S1024x2048_1_0_0_1_n_n.lhsIdx j q 1).val = (q ⟨0, by decide⟩).val :=
  dot_S1024x1024_S1024x2048_S1024x2048_1_0_0_1_n_n.lhsIdx_val_of_single rfl j q
theorem rhs_contr (j : S1024x2048.Idx) (q : dot_S1024x1024_S1024x2048_S1024x2048_1_0_0_1_n_n.contr.Idx) :
    (dot_S1024x1024_S1024x2048_S1024x2048_1_0_0_1_n_n.rhsIdx j q 0).val = (q ⟨0, by decide⟩).val :=
  dot_S1024x1024_S1024x2048_S1024x2048_1_0_0_1_n_n.rhsIdx_val_of_single rfl j q
theorem rhs_col (j : S1024x2048.Idx) (q : dot_S1024x1024_S1024x2048_S1024x2048_1_0_0_1_n_n.contr.Idx) :
    (dot_S1024x1024_S1024x2048_S1024x2048_1_0_0_1_n_n.rhsIdx j q 1).val = (j 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The block product into a zero accumulator, at entry `(p, q)`, is the sum over the 1024 shared features. -/
theorem product_apply (a : FVec Ideal S1024x1024 .bf16) (w : FVec Ideal S1024x2048 .bf16) (p : Fin 1024) (q : Fin 2048) :
    matmul dot_S1024x1024_S1024x2048_S1024x2048_1_0_0_1_n_n none a w (constant (F := Ideal) S1024x2048 .f32 0x00000000#32) (ix2 p q) = rowDot a w p q := by
  unfold rowDot
  simp only [matmul]
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p q) ((contrEquiv1 dot_S1024x1024_S1024x2048_S1024x2048_1_0_0_1_n_n 1024 rfl rfl).symm k) = ix2 p k := funext fun b => Fin.ext (by
    match b with
    | ⟨0, _⟩ => exact lhs_row _ _
    | ⟨1, _⟩ => exact (lhs_contr _ _).trans hk)
  have er : dot_S1024x1024_S1024x2048_S1024x2048_1_0_0_1_n_n.rhsIdx (ix2 p q) ((contrEquiv1 dot_S1024x1024_S1024x2048_S1024x2048_1_0_0_1_n_n 1024 rfl rfl).symm k) = ix2 k q := funext fun b => Fin.ext (by
    match b with
    | ⟨0, _⟩ => exact (rhs_contr _ _).trans hk
    | ⟨1, _⟩ => exact rhs_col _ _)
  rw [el, er]

/-- The root of the sum of the squares of the two halves of a [1024, 2048] array, at entry `(p, q)`. -/
theorem halves_apply (M : FVec Ideal S1024x2048 .f32) (p q : Fin 1024) :
    sqrt (addf (mulf (extractStridedSlice S1024x1024 ![0, 0] M slices_S1024x2048_o0_0_S1024x1024) (extractStridedSlice S1024x1024 ![0, 0] M slices_S1024x2048_o0_0_S1024x1024))
        (mulf (extractStridedSlice S1024x1024 ![0, 1024] M slices_S1024x2048_o0_1024_S1024x1024) (extractStridedSlice S1024x1024 ![0, 1024] M slices_S1024x2048_o0_1024_S1024x1024))) (ix2 p q)
      = Ideal.sqrt (M (ix2 p (colL q)) * M (ix2 p (colL q)) + M (ix2 p (colR q)) * M (ix2 p (colR q))) := by
  have hL : extractStridedSlice S1024x1024 ![0, 0] M slices_S1024x2048_o0_0_S1024x1024 (ix2 p q) = M (ix2 p (colL q)) :=
    extractStridedSlice_apply _ M _ (ix2 p q) (ix2 p (colL q)) (fun b => by
      match b with
      | ⟨0, _⟩ => show p.val = 0 + p.val; omega
      | ⟨1, _⟩ => show q.val = 0 + q.val; omega)
  have hR : extractStridedSlice S1024x1024 ![0, 1024] M slices_S1024x2048_o0_1024_S1024x1024 (ix2 p q) = M (ix2 p (colR q)) :=
    extractStridedSlice_apply _ M _ (ix2 p q) (ix2 p (colR q)) (fun b => by
      match b with
      | ⟨0, _⟩ => show p.val = 0 + p.val; omega
      | ⟨1, _⟩ => show q.val + 1024 = 1024 + q.val; omega)
  show Ideal.sqrt (_ * _ + _ * _) = _
  rw [hL, hR]

/-- ENTRY `(p, q)` OF WHAT THE BODY STORES, from the block of rows `a` and the stacked matrix `w` it loaded. -/
theorem stored_apply (a : Vec Ideal S1024x1024 .bf16) (w : Vec Ideal S1024x2048 .bf16) (p q : Fin 1024) :
    k0_pay1 (F := Ideal) a w (ix2 p q)
      = Ideal.sqrt (rowDot a w p (colL q) * rowDot a w p (colL q) + rowDot a w p (colR q) * rowDot a w p (colR q)) := by
  unfold k0_pay1
  refine (halves_apply _ p q).trans ?_
  rw [shapeCast_self, shapeCast_self, product_apply, product_apply]

end Cert.Layer.Body

end
-- ==== Proof.LayerKernel.lean ====
/-
  The kernel computes the layer.

  Before the grid runs, the program flattens x to X : [16384, 1024] (row b·2048 + t of X is row (b, t) of x) and lays
  the cosines and sines side by side in W : [1024, 2048] (columns 0–1023 are cos (θ + θn), columns 1024–2047 are
  sin (φ + φn)). Grid point t takes rows 1024·t … 1024·t + 1023 of X and the whole of W and writes back the same
  rows of the output: entry (r, o) is
      sqrt ((Σ_k X(r, k) · W(k, o))² + (Σ_k X(r, k) · W(k, o + 1024))²).
  The sixteen row blocks tile the [16384, 1024] output, so after the grid the output is that one function of X and W.
  The program then folds the rows back to [8, 2048, 1024]. Substituting what X and W hold, entry (b, t, o) is the
  modulus of the two amplitudes of row (b, t) of x against column o of the cosines and of the sines: the layer.
-/
import proofs.«159301_j16767552324222_2_alg».proof.Proof.Gen.KernelIdeal.Frame
import proofs.«159301_j16767552324222_2_alg».proof.Proof.Layer
import proofs.«159301_j16767552324222_2_alg».proof.Proof.LayerBody
import Idealize.ShloMosaic.Lib.Pipeline.Value
import Idealize.ShloMosaic.Lib.StableHlo.Run
import Idealize.ShloMosaic.Lib.ValueIdx

noncomputable section

namespace Cert.Layer.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Layer.Body (rowDot colL colR stored_apply)

variable (m : (ℓ : Loc nD τ sig) → Buf (Elt Ideal) ℓ) (ρ : Dev nD → PrngReg)

/-- The five argument arrays on core `c`, as launched: x, θ, φ, θ-noise, φ-noise. -/
abbrev argX (c : Dev nD) : FVec Ideal S8x2048x1024 .f32 := m ((c : Thread nD τ).loc main_arg0)
abbrev argθ (c : Dev nD) : FVec Ideal S1024x1024 .f32 := m ((c : Thread nD τ).loc main_arg1)
abbrev argφ (c : Dev nD) : FVec Ideal S1024x1024 .f32 := m ((c : Thread nD τ).loc main_arg2)
abbrev argθn (c : Dev nD) : FVec Ideal S1024x1024 .f32 := m ((c : Thread nD τ).loc main_arg3)
abbrev argφn (c : Dev nD) : FVec Ideal S1024x1024 .f32 := m ((c : Thread nD τ).loc main_arg4)

/-! ## The flat output as one function of the flat rows and the stacked matrix -/

/-- Row `r` of the flat rows against column `q` of the stacked matrix. -/
def rowSum (X : FVec Ideal S16384x1024 .bf16) (W : FVec Ideal S1024x2048 .bf16) (r : Fin 16384) (q : Fin 2048) : EReal :=
  ∑ k : Fin 1024, X (ix2 r k) * W (ix2 k q)

/-- Entry `(r, o)` of the flat output: the modulus of row `r` against columns `o` and `o + 1024`. -/
def flatAt (X : FVec Ideal S16384x1024 .bf16) (W : FVec Ideal S1024x2048 .bf16) (r : Fin 16384) (o : Fin 1024) : EReal :=
  Ideal.sqrt (rowSum X W r (colL o) * rowSum X W r (colL o) + rowSum X W r (colR o) * rowSum X W r (colR o))

/-- The flat output. -/
def flat (X : FVec Ideal S16384x1024 .bf16) (W : FVec Ideal S1024x2048 .bf16) : FVec Ideal S16384x1024 .f32 :=
  fun j => flatAt X W (j 0) (j 1)

/-! ## What a grid point writes back -/

theorem zero_offsets : (![0, 0] : Fin 2 → Nat) = fun _ => 0 := funext fun a => by fin_cases a <;> rfl

/-- The block indices at each grid point: the rows' window and the output's window are at row block `t`, column
    block 0; the stacked matrix's window is always its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 16 := lt_of_lt_of_eq t.isLt N_0

/-- Row `p` of point `t`'s block of rows against a column of the stacked matrix is row `1024·t + p` of the flat rows
    against that column. -/
theorem rowDot_block (c : Dev nD) (t : Fin cfg0.N) (p : Fin 1024) (r : Fin 16384) (hr : r.val = t.val * 1024 + p.val) (q : Fin 2048) :
    rowDot (iblk m c 0 t) (iblk m c 1 t) p q = rowSum (V m c main_v8) (V m c main_v6) r q := by
  obtain ⟨e0, e1, e2, e3, e4, e5⟩ := block_indices t
  unfold rowDot rowSum
  refine Finset.sum_congr rfl fun k _ => ?_
  have h0 : iblk m c 0 t (ix2 p k) = V m c main_v8 (ix2 r k) := by
    show V m c main_v8 (((cfg0.win 0).blk t).view.emb (ix2 p k)) = V m c main_v8 (ix2 r k)
    refine congrArg (V m c main_v8) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  have h1 : iblk m c 1 t (ix2 k q) = V m c main_v6 (ix2 k q) := by
    show V m c main_v6 (((cfg0.win 1).blk t).view.emb (ix2 k q)) = V m c main_v6 (ix2 k q)
    refine congrArg (V m c main_v6) (funext fun a => Fin.ext ?_)
    match a with
    | ⟨0, _⟩ => show win0_1.index t (0 : Fin 2) * 1024 + 1 * k.val = k.val; omega
    | ⟨1, _⟩ => show win0_1.index t (1 : Fin 2) * 2048 + 1 * q.val = q.val; omega
  rw [h0, h1]

/-- WHAT POINT `t` WRITES BACK is block `t` of the flat output of the flat rows and the stacked matrix as the grid
    finds them. -/
theorem flushed_eq (c : Dev nD) (t : Fin cfg0.N) :
    (dats m 0 c).flushed 2 t = ((cfg0.win 2).blk t).view.read (Elt Ideal) (flat (V m c main_v8) (V m c main_v6)) := by
  show (cfg0.win 2).cut (grid0.coords t) ((dats m 0 c).after 2 t) = _
  rw [after0_2]
  unfold out0_2
  rw [View.canon_unit_zero zero_offsets]
  simp only [View.ld_unit_zero (S := S1024x1024) zero_offsets, View.ld_unit_zero (S := S1024x2048) zero_offsets]
  obtain ⟨e0, e1, e2, e3, e4, e5⟩ := block_indices t
  have ht := point_lt t
  funext y
  obtain ⟨p, q, rfl⟩ : ∃ (p : Fin 1024) (q : Fin 1024), y = ix2 p q := ⟨y 0, y 1, eq_ix2 y⟩
  have hemb : ((cfg0.win 2).blk t).view.emb (ix2 p q) = ix2 (⟨t.val * 1024 + p.val, by have := p.isLt; omega⟩ : Fin 16384) q := by
    funext a; apply Fin.ext
    match a with
    | ⟨0, _⟩ => show win0_2.index t (0 : Fin 2) * 1024 + 1 * p.val = t.val * 1024 + p.val; omega
    | ⟨1, _⟩ => show win0_2.index t (1 : Fin 2) * 1024 + 1 * q.val = q.val; omega
  show k0_pay1 (iblk m c 0 t) (iblk m c 1 t) (ix2 p q) = flat (V m c main_v8) (V m c main_v6) (((cfg0.win 2).blk t).view.emb (ix2 p q))
  refine Eq.trans ?_ (congrArg (flat (V m c main_v8) (V m c main_v6)) hemb).symm
  refine (stored_apply (iblk m c 0 t) (iblk m c 1 t) p q).trans ?_
  show _ = flatAt (V m c main_v8) (V m c main_v6) ⟨t.val * 1024 + p.val, _⟩ q
  unfold flatAt
  rw [rowDot_block m c t p ⟨t.val * 1024 + p.val, by have := p.isLt; omega⟩ rfl (colL q),
    rowDot_block m c t p ⟨t.val * 1024 + p.val, by have := p.isLt; omega⟩ rfl (colR q)]

/-! ## The sixteen row blocks tile the output -/

/-- An index of the output is in point `t`'s block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v9).slice (win0_2.rect t)).set ↔ _
  rw [View.set_slice_whole, Rect.mem_set_unit]
  exact Iff.rfl

/-- Row `r` is written back by point `r / 1024`. -/
theorem cover (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hlt : (i 0).val / 1024 < grid0.N := lt_of_lt_of_eq (by omega : (i 0).val / 1024 < 16) N_0.symm
  obtain ⟨e0, e1, e2, e3, e4, e5⟩ := block_indices ⟨(i 0).val / 1024, hlt⟩
  refine ⟨⟨(i 0).val / 1024, hlt⟩, flush0_2 _, ?_⟩
  rw [mem_blk]
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    have e4' : win0_2.index ⟨(i 0).val / 1024, hlt⟩ (0 : Fin 2) = (i 0).val / 1024 := e4
    omega
  | ⟨1, _⟩ =>
    show win0_2.index ⟨(i 0).val / 1024, hlt⟩ (1 : Fin 2) * 1024 ≤ (i 1).val ∧ (i 1).val < win0_2.index ⟨(i 0).val / 1024, hlt⟩ (1 : Fin 2) * 1024 + 1024
    omega

/-- THE OUTPUT AFTER THE GRID is the flat output of the flat rows and the stacked matrix. -/
theorem final (c : Dev nD) : (dats m 0 c).arrAt 2 cfg0.N = flat (V m c main_v8) (V m c main_v6) :=
  (dats m 0 c).arrAt_eq_of_cover 2 _ (fun t _ => flushed_eq m c t) cover

/-! ## What the flat rows and the stacked matrix hold -/

/-- The flat rows are x with its first two axes merged. -/
theorem rows_eq (c : Dev nD) :
    (V m c main_v8 : FVec Ideal S16384x1024 .bf16)
      = truncf (F := Ideal) .bf16 (shapeCast S16384x1024 (argX m c) shapeCasts_S8x2048x1024_S16384x1024) bitsLt_bf16_f32 := by
  show StableHlo.after hostOps0 (fun b => m (c, b)) (Proc.devRef .tc main_v8) = _
  after_results
  rfl

/-- Row `b·2048 + s` of the flat rows is row `(b, s)` of x. -/
theorem rows_apply (c : Dev nD) (r : Fin 16384) (k : Fin 1024) (b : Fin 8) (s : Fin 2048) (hr : r.val = b.val * 2048 + s.val) :
    V m c main_v8 (ix2 r k) = argX m c (ix3 b s k) := by
  refine (congrFun (rows_eq m c) (ix2 r k)).trans ?_
  show shapeCast S16384x1024 (argX m c) shapeCasts_S8x2048x1024_S16384x1024 (ix2 r k) = _
  refine shapeCast_apply (argX m c) _ (ix2 r k) (ix3 b s k) ?_
  rw [Shape.rowMajor_val_three, Shape.rowMajor_val_two]
  show (b.val * 2048 + s.val) * 1024 + k.val = r.val * 1024 + k.val
  omega

/-- The stacked matrix is the cosines and the sines side by side. -/
theorem stacked_eq (c : Dev nD) :
    (V m c main_v6 : FVec Ideal S1024x2048 .bf16) = concatenate S1024x2048 1
      [⟨S1024x1024, truncf (F := Ideal) .bf16 (Host.cos (F := Ideal) (addf (argθ m c) (argθn m c))) bitsLt_bf16_f32⟩,
        ⟨S1024x1024, truncf (F := Ideal) .bf16 (Host.sin (F := Ideal) (addf (argφ m c) (argφn m c))) bitsLt_bf16_f32⟩]
      concatenates_S1024x1024_S1024x1024_S1024x2048_d1 := by
  show StableHlo.after hostOps0 (fun b => m (c, b)) (Proc.devRef .tc main_v6) = _
  after_results

/-- Column `o` of its left half is column `o` of the cosines. -/
theorem stacked_left (c : Dev nD) (k o : Fin 1024) :
    V m c main_v6 (ix2 k (colL o))
      = Host.cos (F := Ideal) (addf (argθ m c) (argθn m c)) (ix2 k o) := by
  refine (congrFun (stacked_eq m c) (ix2 k (colL o))).trans ?_
  refine (concatenate_pair_apply_left (t := S1024x2048) (s₁ := S1024x1024) (s₂ := S1024x1024) (1 : Fin 2) _ _ concatenates_S1024x1024_S1024x1024_S1024x2048_d1 (ix2 k (colL o)) rfl (ix2 k o) (fun b => by
    match b with
    | ⟨0, _⟩ => rfl
    | ⟨1, _⟩ => rfl)).trans ?_
  rfl

/-- Column `o` of its right half is column `o` of the sines. -/
theorem stacked_right (c : Dev nD) (k o : Fin 1024) :
    V m c main_v6 (ix2 k (colR o))
      = Host.sin (F := Ideal) (addf (argφ m c) (argφn m c)) (ix2 k o) := by
  refine (congrFun (stacked_eq m c) (ix2 k (colR o))).trans ?_
  refine (concatenate_pair_apply_right (t := S1024x2048) (s₁ := S1024x1024) (s₂ := S1024x1024) (1 : Fin 2) _ _ concatenates_S1024x1024_S1024x1024_S1024x2048_d1 (ix2 k (colR o)) rfl rfl (ix2 k o) (fun b hb => by
    match b with
    | ⟨0, _⟩ => rfl
    | ⟨1, _⟩ => exact absurd rfl hb) (by show o.val + 1024 = o.val + 1024; rfl)).trans ?_
  rfl

/-! ## The result -/

/-- The result buffer is the output after the grid with its rows folded back to batch × time. -/
theorem result_eq (c : Dev nD) :
    Pipeline.afterTail₀ cfgs (dats m) 0 (V0 m) [hostOps1] c main_v10
      = shapeCast S8x2048x1024 (flat (V m c main_v8) (V m c main_v6)) shapeCasts_S16384x1024_S8x2048x1024 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = flat (V m c main_v8) (V m c main_v6) :=
    (Pipeline.withArrays_arr spec0 launch0.win.arr_inj c _ _ 2).trans (final m c)
  funext i
  show shapeCast S8x2048x1024 (Pipeline.withArrays (cfgs 0).spec c (V0 m c) (fun w => (dats m 0 c).arrAt w (cfgs 0).N) (Proc.devRef .tc main_v9)) shapeCasts_S16384x1024_S8x2048x1024 i = _
  rw [e]

/-- THE KERNEL'S RESULT IS THE LAYER of the argument arrays. -/
theorem result_eq_layer (c : Dev nD) :
    Pipeline.afterTail₀ cfgs (dats m) 0 (V0 m) [hostOps1] c main_v10
      = Cert.Layer.layer (argX m c) (argθ m c) (argφ m c) (argθn m c) (argφn m c) := by
  funext i
  obtain ⟨b, s, o, rfl⟩ : ∃ (b : Fin 8) (s : Fin 2048) (o : Fin 1024), i = ix3 b s o := ⟨i 0, i 1, i 2, eq_ix3 i⟩
  have hr : b.val * 2048 + s.val < 16384 := by have := b.isLt; have := s.isLt; omega
  refine (congrFun (result_eq m c) (ix3 b s o)).trans ?_
  refine (shapeCast_apply _ _ (ix3 b s o) (ix2 (⟨b.val * 2048 + s.val, hr⟩ : Fin 16384) o) (by
    rw [Shape.rowMajor_val_three, Shape.rowMajor_val_two]
    show (b.val * 2048 + s.val) * 1024 + o.val = (b.val * 2048 + s.val) * 1024 + o.val
    rfl)).trans ?_
  show flatAt (V m c main_v8) (V m c main_v6) ⟨b.val * 2048 + s.val, hr⟩ o = _
  have hc : rowSum (V m c main_v8) (V m c main_v6) ⟨b.val * 2048 + s.val, hr⟩ (colL o)
      = Cert.Layer.amplitude (argX m c) (Host.cos (F := Ideal) (addf (argθ m c) (argθn m c))) (ix3 b s o) := by
    unfold rowSum Cert.Layer.amplitude
    refine Finset.sum_congr rfl fun k _ => ?_
    rw [rows_apply m c ⟨b.val * 2048 + s.val, hr⟩ k b s rfl, stacked_left m c k o]
  have hs : rowSum (V m c main_v8) (V m c main_v6) ⟨b.val * 2048 + s.val, hr⟩ (colR o)
      = Cert.Layer.amplitude (argX m c) (Host.sin (F := Ideal) (addf (argφ m c) (argφn m c))) (ix3 b s o) := by
    unfold rowSum Cert.Layer.amplitude
    refine Finset.sum_congr rfl fun k _ => ?_
    rw [rows_apply m c ⟨b.val * 2048 + s.val, hr⟩ k b s rfl, stacked_right m c k o]
  unfold flatAt
  rw [hc, hs]
  rfl

/-! ## The run -/

/-- Every weakly fair execution of the kernel's program ends with the result buffer at the layer of the argument
    arrays and the argument arrays unchanged. -/
theorem run : θ_run defs (onTc (τ := τ) (main (F := Ideal))) ⟨m, fun _ => 0, ρ⟩ fun r => ∀ c : Dev nD,
      r.2.mem ((c.tc : Thread nD τ).loc main_v10)
        = Cert.Layer.layer (argX m c) (argθ m c) (argφ m c) (argθn m c) (argφn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (result_eq_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Layer.Kernel

end
-- ==== Proof.lean ====
/-
  The certificate of the quantum-inspired dense layer.

  Both programs compute, for x : [8, 2048, 1024] and weights θ, φ, θ-noise, φ-noise : [1024, 1024],
      out(b, t, o) = sqrt ((Σ_k x(b, t, k) · cos (θ + θn)(k, o))² + (Σ_k x(b, t, k) · sin (φ + φn)(k, o))²),
  the modulus of the complex amplitude of row (b, t) of x against column o (Proof/Layer.lean).

  The reference contracts x against the cosines and against the sines separately (Proof/LayerReference.lean).
  The kernel flattens x to 16384 rows, lays the cosines and the sines side by side in one [1024, 2048] matrix,
  multiplies 1024 rows at a time by that matrix on a grid of sixteen points, splits each product into its two
  halves and takes the modulus, and folds the rows back (Proof/LayerBody.lean, Proof/LayerKernel.lean). On the
  extended reals a narrowing of the float format is the identity, and a sum over k is one sum however it is laid
  out, so the two results agree entry by entry for every input: no finiteness of the inputs is used.

  The kernel's idealization rewrote no operation, so there is nothing to preserve; the three frames are the
  generated ones (the reference's is its generated run with the result dropped).
-/
import proofs.«159301_j16767552324222_2_alg».proof.Defs
import proofs.«159301_j16767552324222_2_alg».proof.Proof.Gen.Kernel
import proofs.«159301_j16767552324222_2_alg».proof.Proof.Gen.Kernel.Skeleton
import proofs.«159301_j16767552324222_2_alg».proof.Proof.Gen.Kernel.Launch
import proofs.«159301_j16767552324222_2_alg».proof.Proof.Gen.Kernel.Points
import proofs.«159301_j16767552324222_2_alg».proof.Proof.Gen.Kernel.Frame
import proofs.«159301_j16767552324222_2_alg».proof.Proof.Gen.KernelIdeal
import proofs.«159301_j16767552324222_2_alg».proof.Proof.Gen.KernelIdeal.Skeleton
import proofs.«159301_j16767552324222_2_alg».proof.Proof.Gen.KernelIdeal.Launch
import proofs.«159301_j16767552324222_2_alg».proof.Proof.Gen.KernelIdeal.Points
import proofs.«159301_j16767552324222_2_alg».proof.Proof.Gen.KernelIdeal.Frame
import proofs.«159301_j16767552324222_2_alg».proof.Proof.Gen.ReferenceIdeal
import proofs.«159301_j16767552324222_2_alg».proof.Proof.Gen.ReferenceIdeal.Run
import proofs.«159301_j16767552324222_2_alg».proof.Proof.Gen.ReferenceIdeal.Read
import proofs.«159301_j16767552324222_2_alg».proof.Proof.Gen.Pre_finite_inputs
import proofs.«159301_j16767552324222_2_alg».proof.Proof.LayerReference
import proofs.«159301_j16767552324222_2_alg».proof.Proof.LayerKernel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the argument arrays in their result buffer: the kernel by its run read
    through the grid and the host lines around it, the reference by its run read one operation at a time. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Layer.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.Layer.Reference.stage_eq_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
